-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S2000x128 : Shape := ⟨2, ![2000, 128]⟩
abbrev S800000x128 : Shape := ⟨2, ![800000, 128]⟩
abbrev S50000x1 : Shape := ⟨2, ![50000, 1]⟩
abbrev S1x128 : Shape := ⟨2, ![1, 128]⟩
abbrev S2000x1 : Shape := ⟨2, ![2000, 1]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 82
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S50000, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x1, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x1, .f32⟩
  | .hbm, ⟨60, _⟩ => ⟨S1x128, .f32⟩
  | .hbm, ⟨61, _⟩ => ⟨S50000x128, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S800000x1, .f32⟩
  | .hbm, ⟨73, _⟩ => ⟨S800000x64, .f32⟩
  | .hbm, ⟨74, _⟩ => ⟨S800000x64, .f32⟩
  | .hbm, ⟨75, _⟩ => ⟨S_, .f32⟩
  | .hbm, ⟨76, _⟩ => ⟨S50000x64, .f32⟩
  | .hbm, ⟨77, _⟩ => ⟨S800000x1, .i32⟩
  | .hbm, ⟨78, _⟩ => ⟨S50000x64, .f32⟩
  | .hbm, ⟨79, _⟩ => ⟨S50000x1, .f32⟩
  | .hbm, ⟨80, _⟩ => ⟨S1x64, .f32⟩
  | .hbm, ⟨81, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x1, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000, .f32⟩
  | .hbm, ⟨100, _⟩ => ⟨S800000, .f32⟩
  | .hbm, ⟨101, _⟩ => ⟨S_, .i32⟩
  | .hbm, ⟨102, _⟩ => ⟨S800000, .i32⟩
  | .hbm, ⟨103, _⟩ => ⟨S800000, .i1⟩
  | .hbm, ⟨104, _⟩ => ⟨S_, .i32⟩
  | .hbm, ⟨105, _⟩ => ⟨S800000, .i32⟩
  | .hbm, ⟨106, _⟩ => ⟨S800000, .i32⟩
  | .hbm, ⟨107, _⟩ => ⟨S800000, .i32⟩
  | .hbm, ⟨108, _⟩ => ⟨S800000x1, .i32⟩
  | .hbm, ⟨109, _⟩ => ⟨S800000x64, .f32⟩
  | .hbm, ⟨110, _⟩ => ⟨S800000x1, .f32⟩
  | .hbm, ⟨111, _⟩ => ⟨S800000x64, .f32⟩
  | .hbm, ⟨112, _⟩ => ⟨S800000x64, .f32⟩
  | .hbm, ⟨113, _⟩ => ⟨S_, .f32⟩
  | .hbm, ⟨114, _⟩ => ⟨S50000x64, .f32⟩
  | .hbm, ⟨115, _⟩ => ⟨S800000x1, .i32⟩
  | .hbm, ⟨116, _⟩ => ⟨S50000x64, .f32⟩
  | .hbm, ⟨117, _⟩ => ⟨S50000, .f32⟩
  | .hbm, ⟨118, _⟩ => ⟨S50000x1, .f32⟩
  | .hbm, ⟨119, _⟩ => ⟨S50000x64, .f32⟩
  | .hbm, ⟨120, _⟩ => ⟨S50000x64, .f32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its result array NAMED. The program is four tiled regions among three stretches of
  host operations; the buffer contents at each boundary are a fold from the launch memory (`Gen.W0 … Gen.W7`), and at
  the end every unscoped buffer holds the last boundary's contents `Gen.W7`. Read at the result buffer this says what
  the result array is; read at the arguments it says they are unchanged.
-/
import proofs.«131186_j23072564314519_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the six arguments end as launched. -/
theorem run : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunNamed

end
-- ==== Proof.Dense1.lean ====
/-
  The first dense layer. The region tiles the 50000 rows into 25 blocks of 2000; at a block the body multiplies the
  block of rows by the whole weight matrix into a zero accumulator. Over the extended reals entry (r, c) of the product
  is the sum over k of x(r, k) · w(k, c), whichever block row r falls in and whatever the operands' storage format, so
  the array the region leaves is the host's matrix product of the two arrays the region was entered with.
-/
import proofs.«131186_j23072564314519_1_alg».proof.Proof.Gen.KernelIdeal.Frame
import proofs.«131186_j23072564314519_1_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.Dense1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's product at an entry -/

theorem lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the body's product of a block of rows and the weights: the sum over k of row p's k-th entry times
    the weights' entry (k, q). The operands' narrowing to a shorter format is the identity on extended reals. -/
theorem product_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs0 _ _
    | ⟨1, _⟩ => exact (lhs1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs0 _ _).trans hk
    | ⟨1, _⟩ => exact rhs1 _ _)
  rw [el, er]
  rfl

/-! ## The blocks -/

theorem hz : (![0, 0] : Fin 2 → Nat) = fun _ => 0 := funext fun a => by fin_cases a <;> rfl

/-- The printed index maps over the 25 grid points: the rows' window and the result's window sit at block row t, the
    weights' window stays at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is row 2000 t + p of the array. -/
def row (t : Fin cfg0.N) (p : Fin 2000) : Fin 50000 :=
  ⟨t.val * 2000 + p.val, by have := t.isLt; have hN : cfg0.N = 25 := N_0; omega⟩

/-- The rows' block at point t, entry (p, k), is the array's entry (2000 t + p, k). -/
theorem rows_apply (c : Dev nD) (t : Fin cfg0.N) (p : Fin 2000) (k : Fin 128) :
    (iblk0 V c 0 t : Vec Ideal S2000x128 .f32) (ix2 p k) = (V c main_arg0 : S50000x128.Idx → EReal) (ix2 (row t p) k) := by
  obtain ⟨e0, e1, -⟩ := idx_facts t
  unfold iblk0
  rw [View.read_apply]
  show (V c main_arg0 : S50000x128.Idx → EReal) _ = _
  refine congrArg (V c main_arg0 : S50000x128.Idx → EReal) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The weights' block at any point is the whole weight matrix. -/
theorem weights_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e2, e3, -⟩ := idx_facts t
  unfold iblk0
  rw [View.read_apply]
  show (V c main_arg2 : S128x128.Idx → EReal) _ = _
  refine congrArg (V c main_arg2 : S128x128.Idx → EReal) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The result window's block at point t places its entry (p, q) at the array's (2000 t + p, q). -/
theorem out_emb (t : Fin cfg0.N) (p : Fin 2000) (q : Fin 128) :
    ((cfg0.win 2).blk t).view.emb (ix2 p q) = (ix2 (row t p) q : S50000x128.Idx) := by
  obtain ⟨-, -, -, -, e4, e5⟩ := idx_facts t
  funext a
  apply Fin.ext
  match a with
  | ⟨0, _⟩ => show win0_2.index t (0 : Fin 2) * 2000 + 1 * p.val = t.val * 2000 + p.val; rw [e4]; omega
  | ⟨1, _⟩ => show win0_2.index t (1 : Fin 2) * 128 + 1 * q.val = q.val; rw [e5]; omega

/-! ## The array the region leaves -/

/-- The host's matrix product of the two arrays the region is entered with. -/
abbrev product (c : Dev nD) : S50000x128.Idx → EReal :=
  Cert.ReferenceIdeal.Read.val_main_v4 (F := Ideal) (V c main_arg0) (V c main_arg2)

theorem lidx_eq (r : Fin 50000) (q k : Fin 128) :
    Cert.ReferenceIdeal.Read.lidx_main_v4 (ix2 r q) k = ix2 r k :=
  funext fun a => Fin.ext (by match a with | ⟨0, _⟩ => rfl | ⟨1, _⟩ => rfl)
theorem ridx_eq (r : Fin 50000) (q k : Fin 128) :
    Cert.ReferenceIdeal.Read.ridx_main_v4 (ix2 r q) k = ix2 k q :=
  funext fun a => Fin.ext (by match a with | ⟨0, _⟩ => rfl | ⟨1, _⟩ => rfl)

/-- What point t writes back is block t of the product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  refine (product_apply (iblk0 V c 0 t) (iblk0 V c 1 t) p q).trans ?_
  rw [View.read_apply, out_emb t p q]
  refine Eq.trans ?_ (Cert.ReferenceIdeal.Read.val_main_v4_apply (V c main_arg0) (V c main_arg2) (ix2 (row t p) q)).symm
  refine Finset.sum_congr rfl fun k _ => ?_
  rw [lidx_eq, ridx_eq, rows_apply V c t p k, weights_apply V c t k q]

/-- An index of the array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v28).slice (win0_2.rect t)).set ↔ _
  rw [View.set_slice_whole, Rect.mem_set_unit]
  exact Iff.rfl

/-- Row r lies in block r / 2000: the 25 blocks cover the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 128 ≤ (i 1).val ∧ (i 1).val < win0_2.index t (1 : Fin 2) * 128 + 128; rw [e5]; omega

/-- After the region its result array is the host's matrix product of the rows' array and the weights' array. -/
theorem final (c : Dev nD) : (dat0 V c).arrAt 2 cfg0.N = product V c :=
  (dat0 V c).arrAt_eq_of_cover 2 (product V c) (fun t _ => flushed_eq V c t) cover

end Cert.KernelIdeal.Dense1

end
-- ==== Proof.Graph.lean ====
/-
  The graph side of the convolution, as the host computes it in both programs, named once. From the [2, E] edge array:
  the source and target rows; an index wrapped into range the way a gather reads it; the inverse square root of each
  node's degree (one per incoming edge, plus one for the self-loop); the weight of an edge (the product of its two
  endpoints' factors) and of a self-loop (the factor squared); and the aggregation of a feature array over the edges:
  each edge carries its source's feature row, scaled by the edge's weight, into its target's row. These functions are
  only ever compared with themselves, so nothing here looks inside a gather or a scatter.
-/
import proofs.«131186_j23072564314519_1_alg».proof.KernelIdeal
import proofs.«131186_j23072564314519_1_alg».proof.Proof.Gen.KernelIdeal

noncomputable section

namespace Cert.Graph

open Cert.KernelIdeal Cert.KernelIdeal.Gen Idealize.ShloMosaic

variable {F : FTy → Type} [FloatOps F]

/-- The edges' source nodes: row 0 of the edge array. -/
def sources (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' target nodes: row 1 of the edge array. -/
def targets (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A node index as a gather reads it: a negative index counts from the end. -/
def wrapped (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- One index per edge as the [E, 1] array a gather or scatter takes. -/
def asColumn (v : (⟨S800000, .i32⟩ : BufTy).Contents (Elt F)) : (⟨S800000x1, .i32⟩ : BufTy).Contents (Elt F) :=
  broadcastInDim S800000x1 ![0] bcast_S800000_S800000x1_0 v

/-- Per node, (1 + the number of edges into it) to the power -1/2. -/
def invSqrtDegree (e : (⟨S2x800000, .i32⟩ : BufTy).Contents (Elt F)) : (⟨S50000, .f32⟩ : BufTy).Contents (Elt F) :=
  Host.powf
    (addf
      (Host.scatterAdd scatter_S50000_S800000x1_S800000_n_0_0_1
        (broadcastInDim S50000 ![] bcast_S_S50000 (constant S_ .f32 0x00000000#32))
        (asColumn (targets e))
        (broadcastInDim S800000 ![] bcast_S_S800000 (constant S_ .f32 0x3F800000#32)))
      (broadcastInDim S50000 ![] bcast_S_S50000 (constant S_ .f32 0x3F800000#32)))
    (broadcastInDim S50000 ![] bcast_S_S50000 (constant S_ .f32 0xBF000000#32))

/-- Per edge, the product of its source's and its target's factors. -/
def edgeWeight (e : (⟨S2x800000, .i32⟩ : BufTy).Contents (Elt F)) : (⟨S800000, .f32⟩ : BufTy).Contents (Elt F) :=
  mulf
    (Host.gather gather_S50000_S800000x1_S800000_n_0_n_n_0_1_1 (invSqrtDegree e) (asColumn (wrapped (sources e))))
    (Host.gather gather_S50000_S800000x1_S800000_n_0_n_n_0_1_1 (invSqrtDegree e) (asColumn (wrapped (targets e))))

/-- Per node, the weight of its self-loop: its factor squared. -/
def selfWeight (e : (⟨S2x800000, .i32⟩ : BufTy).Contents (Elt F)) : (⟨S50000, .f32⟩ : BufTy).Contents (Elt F) :=
  mulf (invSqrtDegree e) (invSqrtDegree e)

/-- A 128-wide feature array aggregated over the edges: into each target's row, the sum of its incoming edges' source
    rows, each scaled by the edge's weight. -/
def aggregate128 (h : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (asColumn (targets e))
    (mulf
      (Host.gather gather_S50000x128_S800000x1_S800000x128_1_0_n_n_0_1_1128 h (asColumn (wrapped (sources e))))
      (broadcastInDim S800000x128 ![0, 1] bcast_S800000x1_S800000x128_0_1
        (broadcastInDim S800000x1 ![0] bcast_S800000_S800000x1_0 (edgeWeight e))))

/-- The same for a 64-wide feature array. -/
def aggregate64 (h : (⟨S50000x64, .f32⟩ : BufTy).Contents (Elt F)) (e : (⟨S2x800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (asColumn (targets e))
    (mulf
      (Host.gather gather_S50000x64_S800000x1_S800000x64_1_0_n_n_0_1_164 h (asColumn (wrapped (sources e))))
      (broadcastInDim S800000x64 ![0, 1] bcast_S800000x1_S800000x64_0_1
        (broadcastInDim S800000x1 ![0] bcast_S800000_S800000x1_0 (edgeWeight e))))

end Cert.Graph

end
-- ==== Proof.Network.lean ====
/-
  The two-layer graph convolution as one function of the six arguments, over the extended reals: a layer multiplies the
  features by its weights, aggregates the product over the edges, adds the product scaled node by node by the self-loop
  weight, and adds the bias to every row; the first layer is followed by a clamp below at zero. Both programs are shown
  to compute this function.
-/
import proofs.«131186_j23072564314519_1_alg».proof.Proof.Graph
import proofs.«131186_j23072564314519_1_alg».proof.Proof.Gen.ReferenceIdeal.Read

noncomputable section

namespace Cert.Network

open Cert.KernelIdeal Cert.KernelIdeal.Gen Idealize.ShloMosaic

theorem nodes_column : S50000.BroadcastsInDim S50000x1 (![0] : Fin 1 → Fin S50000x1.rank) := by decide
theorem column_128 : S50000x1.BroadcastsInDim S50000x128 (![0, 1] : Fin 2 → Fin S50000x128.rank) := by decide
theorem column_64 : S50000x1.BroadcastsInDim S50000x64 (![0, 1] : Fin 2 → Fin S50000x64.rank) := by decide
theorem bias_row128 : S128.BroadcastsInDim S1x128 (![1] : Fin 1 → Fin S1x128.rank) := by decide
theorem bias_row64 : S64.BroadcastsInDim S1x64 (![1] : Fin 1 → Fin S1x64.rank) := by decide
theorem row_128 : S1x128.BroadcastsInDim S50000x128 (![0, 1] : Fin 2 → Fin S50000x128.rank) := by decide
theorem row_64 : S1x64.BroadcastsInDim S50000x64 (![0, 1] : Fin 2 → Fin S50000x64.rank) := by decide

/-- A 128-wide layer before any clamp, from the layer's dense product `h`: aggregate, add the self-loop term, add the bias. -/
def combine128 (h : (⟨S50000x128, .f32⟩ : BufTy).Contents (Elt Ideal)) (e : (⟨S2x800000, .i32⟩ : BufTy).Contents (Elt Ideal)) (b : (⟨S128, .f32⟩ : BufTy).Contents (Elt Ideal)) :
    (⟨S50000x128, .f32⟩ : BufTy).Contents (Elt Ideal) :=
  addf (F := Ideal) (s := S50000x128) (φ := .f32)
    (addf (Cert.Graph.aggregate128 h e)
      (mulf (broadcastInDim S50000x128 ![0, 1] column_128 (broadcastInDim S50000x1 ![0] nodes_column (Cert.Graph.selfWeight e))) h))
    (broadcastInDim S50000x128 ![0, 1] row_128 (broadcastInDim S1x128 ![1] bias_row128 b))

/-- The same for a 64-wide layer. -/
def combine64 (h : (⟨S50000x64, .f32⟩ : BufTy).Contents (Elt Ideal)) (e : (⟨S2x800000, .i32⟩ : BufTy).Contents (Elt Ideal)) (b : (⟨S64, .f32⟩ : BufTy).Contents (Elt Ideal)) :
    (⟨S50000x64, .f32⟩ : BufTy).Contents (Elt Ideal) :=
  addf (F := Ideal) (s := S50000x64) (φ := .f32)
    (addf (Cert.Graph.aggregate64 h e)
      (mulf (broadcastInDim S50000x64 ![0, 1] column_64 (broadcastInDim S50000x1 ![0] nodes_column (Cert.Graph.selfWeight e))) h))
    (broadcastInDim S50000x64 ![0, 1] row_64 (broadcastInDim S1x64 ![1] bias_row64 b))

/-- The first layer's dense product: the host's matrix product of a [50000, 128] array and [128, 128] weights. -/
abbrev dense128 (y : (⟨S50000x128, .f32⟩ : BufTy).Contents (Elt Ideal)) (w : (⟨S128x128, .f32⟩ : BufTy).Contents (Elt Ideal)) : (⟨S50000x128, .f32⟩ : BufTy).Contents (Elt Ideal) :=
  Cert.ReferenceIdeal.Read.val_main_v4 (F := Ideal) y w

/-- The second layer's dense product: the host's matrix product of a [50000, 128] array and [128, 64] weights. -/
def dense64 (y : (⟨S50000x128, .f32⟩ : BufTy).Contents (Elt Ideal)) (w : (⟨S128x64, .f32⟩ : BufTy).Contents (Elt Ideal)) : (⟨S50000x64, .f32⟩ : BufTy).Contents (Elt Ideal) :=
  Host.dotGeneral (F := Ideal) (φ₁ := .f32) (φ₂ := .f32) Cert.ReferenceIdeal.dot_S50000x128_S128x64_S50000x64_1_0_0_1_n_n none y w

/-- The hidden features: the first layer, clamped below at zero. -/
def hidden (x : (⟨S50000x128, .f32⟩ : BufTy).Contents (Elt Ideal)) (e : (⟨S2x800000, .i32⟩ : BufTy).Contents (Elt Ideal)) (w1 : (⟨S128x128, .f32⟩ : BufTy).Contents (Elt Ideal)) (b1 : (⟨S128, .f32⟩ : BufTy).Contents (Elt Ideal)) :
    (⟨S50000x128, .f32⟩ : BufTy).Contents (Elt Ideal) :=
  maximumf (F := Ideal) (s := S50000x128) (φ := .f32)
    (combine128 (dense128 x w1) e b1)
    (broadcastInDim S50000x128 ![] bcast_S_S50000x128 (constant (F := Ideal) S_ .f32 0x00000000#32))

/-- The network's output: the second layer of the hidden features. -/
def output (x : (⟨S50000x128, .f32⟩ : BufTy).Contents (Elt Ideal)) (e : (⟨S2x800000, .i32⟩ : BufTy).Contents (Elt Ideal)) (w1 : (⟨S128x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) : (⟨S50000x64, .f32⟩ : BufTy).Contents (Elt Ideal) :=
  combine64 (dense64 (hidden x e w1 b1) w2) e b2

end Cert.Network

end
-- ==== Proof.Dense2.lean ====
/-
  The second dense layer. The region tiles the 50000 rows of the hidden features into 25 blocks of 2000; at a block the
  body multiplies the block of rows by the whole [128, 64] weight matrix into a zero accumulator. Over the extended reals
  entry (r, c) of the product is the sum over k of y(r, k) · w(k, c), whichever block row r falls in and whatever the
  operands' storage format, so the array the region leaves is the host's matrix product of the two arrays the region was
  entered with.
-/
import proofs.«131186_j23072564314519_1_alg».proof.Proof.Gen.KernelIdeal.Frame
import proofs.«131186_j23072564314519_1_alg».proof.Proof.Gen.ReferenceIdeal.Read
import proofs.«131186_j23072564314519_1_alg».proof.Proof.Network
import Idealize.ShloMosaic.Lib.Pipeline.Value
import Idealize.ShloMosaic.Lib.ValueIdx
import Idealize.ShloMosaic.PureOps.Ideal.Laws

noncomputable section

namespace Cert.KernelIdeal.Dense2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's product at an entry -/

theorem lhs0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry (p, q) of the body's product of a block of rows and the weights: the sum over k of row p's k-th entry times
    the weights' entry (k, q). The operands' narrowing to a shorter format is the identity on extended reals. -/
theorem product_apply (x0 : Vec Ideal S2000x128 .f32) (x1 : Vec Ideal S128x64 .f32) (p : Fin 2000) (q : Fin 64) :
    k2_pay1 x0 x1 (ix2 p q) = ∑ k : Fin 128, x0 (ix2 p k) * x1 (ix2 k q) := by
  unfold k2_pay1
  simp only [matmul, shapeCast_self]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs0 _ _
    | ⟨1, _⟩ => exact (lhs1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs0 _ _).trans hk
    | ⟨1, _⟩ => exact rhs1 _ _)
  rw [el, er]
  rfl

/-! ## The host's product at an entry -/

/-- Entry (r, q) of the host's matrix product of any [50000, 128] array and [128, 64] weights: the same sum. -/
theorem dense64_apply (y : S50000x128.Idx → EReal) (w : S128x64.Idx → EReal) (r : Fin 50000) (q : Fin 64) :
    Cert.Network.dense64 y w (ix2 r q) = ∑ k : Fin 128, y (ix2 r k) * w (ix2 k q) := by
  unfold Cert.Network.dense64
  simp only [Host.dotGeneral]
  rw [Ideal.dotGeneral_apply, ← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ix2 r q) ((contrEquiv1 Cert.ReferenceIdeal.dot_S50000x128_S128x64_S50000x64_1_0_0_1_n_n 128 rfl rfl).symm k) = ix2 r k := funext fun a => Fin.ext (by
    match a with
    | ⟨0, _⟩ => exact Cert.ReferenceIdeal.Read.lhs_main_v50_0 _ _
    | ⟨1, _⟩ => exact (Cert.ReferenceIdeal.Read.lhs_main_v50_1 _ _).trans hk)
  have er : Cert.ReferenceIdeal.dot_S50000x128_S128x64_S50000x64_1_0_0_1_n_n.rhsIdx (ix2 r q) ((contrEquiv1 Cert.ReferenceIdeal.dot_S50000x128_S128x64_S50000x64_1_0_0_1_n_n 128 rfl rfl).symm k) = ix2 k q := funext fun a => Fin.ext (by
    match a with
    | ⟨0, _⟩ => exact (Cert.ReferenceIdeal.Read.rhs_main_v50_0 _ _).trans hk
    | ⟨1, _⟩ => exact Cert.ReferenceIdeal.Read.rhs_main_v50_1 _ _)
  rw [el, er]

/-! ## The blocks -/

theorem hz : (![0, 0] : Fin 2 → Nat) = fun _ => 0 := funext fun a => by fin_cases a <;> rfl

/-- The printed index maps over the 25 grid points: the rows' window and the result's window sit at block row t, the
    weights' window stays at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of block t is row 2000 t + p of the array. -/
def row (t : Fin cfg2.N) (p : Fin 2000) : Fin 50000 :=
  ⟨t.val * 2000 + p.val, by have := t.isLt; have hN : cfg2.N = 25 := N_2; omega⟩

/-- The rows' block at point t, entry (p, k), is the array's entry (2000 t + p, k). -/
theorem rows_apply (c : Dev nD) (t : Fin cfg2.N) (p : Fin 2000) (k : Fin 128) :
    (iblk2 V c 0 t : Vec Ideal S2000x128 .f32) (ix2 p k) = (V c main_v44 : S50000x128.Idx → EReal) (ix2 (row t p) k) := by
  obtain ⟨e0, e1, -⟩ := idx_facts t
  unfold iblk2
  rw [View.read_apply]
  show (V c main_v44 : S50000x128.Idx → EReal) _ = _
  refine congrArg (V c main_v44 : S50000x128.Idx → EReal) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

/-- The weights' block at any point is the whole weight matrix. -/
theorem weights_apply (c : Dev nD) (t : Fin cfg2.N) (k : Fin 128) (q : Fin 64) :
    (iblk2 V c 1 t : Vec Ideal S128x64 .f32) (ix2 k q) = (V c main_arg4 : S128x64.Idx → EReal) (ix2 k q) := by
  obtain ⟨-, -, e2, e3, -⟩ := idx_facts t
  unfold iblk2
  rw [View.read_apply]
  show (V c main_arg4 : S128x64.Idx → EReal) _ = _
  refine congrArg (V c main_arg4 : S128x64.Idx → EReal) (funext fun a => Fin.ext ?_)
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- The result window's block at point t places its entry (p, q) at the array's (2000 t + p, q). -/
theorem out_emb (t : Fin cfg2.N) (p : Fin 2000) (q : Fin 64) :
    ((cfg2.win 2).blk t).view.emb (ix2 p q) = (ix2 (row t p) q : S50000x64.Idx) := by
  obtain ⟨-, -, -, -, e4, e5⟩ := idx_facts t
  funext a
  apply Fin.ext
  match a with
  | ⟨0, _⟩ => show win2_2.index t (0 : Fin 2) * 2000 + 1 * p.val = t.val * 2000 + p.val; rw [e4]; omega
  | ⟨1, _⟩ => show win2_2.index t (1 : Fin 2) * 64 + 1 * q.val = q.val; rw [e5]; omega

/-! ## The array the region leaves -/

/-- The host's matrix product of the two arrays the region is entered with. -/
abbrev product (c : Dev nD) : S50000x64.Idx → EReal :=
  Cert.Network.dense64 (V c main_v44) (V c main_arg4)

/-- What point t writes back is block t of the product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  funext j
  obtain ⟨p, q, rfl⟩ : ∃ (p : Fin 2000) (q : Fin 64), j = ix2 p q := ⟨j 0, j 1, eq_ix2 j⟩
  refine (product_apply (iblk2 V c 0 t) (iblk2 V c 1 t) p q).trans ?_
  rw [View.read_apply, out_emb t p q]
  refine Eq.trans ?_ (dense64_apply (V c main_v44) (V c main_arg4) (row t p) q).symm
  refine Finset.sum_congr rfl fun k _ => ?_
  rw [rows_apply V c t p k, weights_apply V c t k q]

/-- An index of the array is in point t's block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v45).slice (win2_2.rect t)).set ↔ _
  rw [View.set_slice_whole, Rect.mem_set_unit]
  exact Iff.rfl

/-- Row r lies in block r / 2000: the 25 blocks cover the array. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; rw [e4, ht]; omega
  | ⟨1, _⟩ => show win2_2.index t (1 : Fin 2) * 64 ≤ (i 1).val ∧ (i 1).val < win2_2.index t (1 : Fin 2) * 64 + 64; rw [e5]; omega

/-- After the region its result array is the host's matrix product of the rows' array and the weights' array. -/
theorem final (c : Dev nD) : (dat2 V c).arrAt 2 cfg2.N = product V c :=
  (dat2 V c).arrAt_eq_of_cover 2 (product V c) (fun t _ => flushed_eq V c t) cover

end Cert.KernelIdeal.Dense2

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Combine1.lean ====
/-
  The first layer's combination. The region tiles the 50000 rows into 25 blocks of 2000; at a block the body adds to
  the aggregated block the features' block scaled row by row by a column of self-loop weights, adds the bias row to
  every row, and clamps below at zero. Each entry (r, c) of the result depends on the entries (r, c) of the aggregate
  and of the features, on the column's entry in row r and on the bias' entry in column c only, so the array the region
  leaves is the same combination of the whole arrays the region was entered with.
-/
import proofs.«131186_j23072564314519_1_alg».proof.Proof.Gen.KernelIdeal.Frame
import proofs.«131186_j23072564314519_1_alg».proof.Proof.LibColumn
import Idealize.ShloMosaic.Lib.Pipeline.Value
import Idealize.ShloMosaic.Lib.ValueIdx
import Idealize.ShloMosaic.Lib.ValueLayout

noncomputable section

namespace Cert.KernelIdeal.Combine1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's value at an entry -/

/-- Entry (p, q) of what the body stores: the aggregate's entry plus the column's entry of row p times the features'
    entry, plus the bias' entry of column q, clamped below at zero. -/
theorem body_apply (a : Vec Ideal S2000x128 .f32) (s : Vec Ideal S2000x1 .f32) (h : Vec Ideal S2000x128 .f32) (b : Vec Ideal S1x128 .f32)
    (p : Fin 2000) (q : Fin 128) :
    k1_pay1 a s h b (ix2 p q)
      = max ((a (ix2 p q) + s (ix2 p (0 : Fin 1)) * h (ix2 p q)) + b (ix2 (0 : Fin 1) q)) (Scalar.ofBits (F := Ideal) .f32 0x00000000#32) := by
  unfold k1_pay1
  simp only [shapeCast_self]
  show max ((a (ix2 p q) + broadcastTo S2000x128 s broadcasts_S2000x1_S2000x128 (ix2 p q) * h (ix2 p q))
      + broadcastTo S2000x128 b broadcasts_S1x128_S2000x128 (ix2 p q)) _ = _
  rw [Cert.LibColumn.broadcastTo_a1_ab_apply, broadcastTo_1b_ab_apply]
  rfl

/-! ## The host's broadcasts at an entry -/

theorem bcastCol : S50000x1.BroadcastsInDim S50000x128 (![0, 1] : Fin 2 → Fin S50000x128.rank) := by decide
theorem bcastRow : S1x128.BroadcastsInDim S50000x128 (![0, 1] : Fin 2 → Fin S50000x128.rank) := by decide

/-- A column [50000, 1] spread over the 128 entries of each row. -/
theorem col_apply (s : S50000x1.Idx → EReal) (r : Fin 50000) (q : Fin 128) :
    broadcastInDim S50000x128 ![0, 1] bcastCol s (ix2 r q) = s (ix2 r (0 : Fin 1)) :=
  broadcastInDim_apply _ bcastCol s (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

/-- A row [1, 128] repeated in each of the 50000 rows. -/
theorem row_apply (b : S1x128.Idx → EReal) (r : Fin 50000) (q : Fin 128) :
    broadcastInDim S50000x128 ![0, 1] bcastRow b (ix2 r q) = b (ix2 (0 : Fin 1) q) :=
  broadcastInDim_apply _ bcastRow b (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- A scalar spread over the whole array. -/
theorem splat_apply (z : S_.Idx → EReal) (i : S50000x128.Idx) :
    broadcastInDim S50000x128 ![] bcast_S_S50000x128 z i = z ix0 :=
  broadcastInDim_apply _ bcast_S_S50000x128 z i ix0 (fun a => a.elim0)

/-- Entry (r, q) of the host's form of the combination: the same expression of the four arrays' entries. -/
theorem host_apply (a h : S50000x128.Idx → EReal) (s : S50000x1.Idx → EReal) (b : S1x128.Idx → EReal) (r : Fin 50000) (q : Fin 128) :
    maximumf (F := Ideal) (s := S50000x128) (φ := .f32)
        (addf (addf a (mulf (broadcastInDim S50000x128 ![0, 1] bcastCol s) h)) (broadcastInDim S50000x128 ![0, 1] bcastRow b))
        (broadcastInDim S50000x128 ![] bcast_S_S50000x128 (constant (F := Ideal) S_ .f32 0x00000000#32)) (ix2 r q)
      = max ((a (ix2 r q) + s (ix2 r (0 : Fin 1)) * h (ix2 r q)) + b (ix2 (0 : Fin 1) q)) (Scalar.ofBits (F := Ideal) .f32 0x00000000#32) := by
  show max ((a (ix2 r q) + broadcastInDim S50000x128 ![0, 1] bcastCol s (ix2 r q) * h (ix2 r q))
      + broadcastInDim S50000x128 ![0, 1] bcastRow b (ix2 r q))
      (broadcastInDim S50000x128 ![] bcast_S_S50000x128 (constant (F := Ideal) S_ .f32 0x00000000#32) (ix2 r q)) = _
  rw [col_apply, row_apply, splat_apply]
  rfl

/-! ## The blocks -/

theorem hz : (![0, 0] : Fin 2 → Nat) = fun _ => 0 := funext fun a => by fin_cases a <;> rfl

/-- The printed index maps over the 25 grid points: the aggregate's, the features', the column's and the result's
    windows sit at block row t, the bias' window stays at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t is row 2000 t + p of the array. -/
def row (t : Fin cfg1.N) (p : Fin 2000) : Fin 50000 :=
  ⟨t.val * 2000 + p.val, by have := t.isLt; have hN : cfg1.N = 25 := N_1; omega⟩

theorem agg_apply (c : Dev nD) (t : Fin cfg1.N) (p : Fin 2000) (q : Fin 128) :
    (iblk1 V c 0 t : Vec Ideal S2000x128 .f32) (ix2 p q) = (V c main_v41 : S50000x128.Idx → EReal) (ix2 (row t p) q) := by
  obtain ⟨e0, e1, -⟩ := idx_facts t
  unfold iblk1
  rw [View.read_apply]
  show (V c main_v41 : S50000x128.Idx → EReal) _ = _
  refine congrArg (V c main_v41 : S50000x128.Idx → EReal) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * q.val = q.val; rw [e1]; omega

theorem feat_apply (c : Dev nD) (t : Fin cfg1.N) (p : Fin 2000) (q : Fin 128) :
    (iblk1 V c 1 t : Vec Ideal S2000x128 .f32) (ix2 p q) = (V c main_v28 : S50000x128.Idx → EReal) (ix2 (row t p) q) := by
  obtain ⟨-, -, e0, e1, -⟩ := idx_facts t
  unfold iblk1
  rw [View.read_apply]
  show (V c main_v28 : S50000x128.Idx → EReal) _ = _
  refine congrArg (V c main_v28 : S50000x128.Idx → EReal) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * q.val = q.val; rw [e1]; omega

theorem scale_apply (c : Dev nD) (t : Fin cfg1.N) (p : Fin 2000) :
    (iblk1 V c 2 t : Vec Ideal S2000x1 .f32) (ix2 p (0 : Fin 1)) = (V c main_v42 : S50000x1.Idx → EReal) (ix2 (row t p) (0 : Fin 1)) := by
  obtain ⟨-, -, -, -, e0, e1, -⟩ := idx_facts t
  unfold iblk1
  rw [View.read_apply]
  show (V c main_v42 : S50000x1.Idx → EReal) _ = _
  refine congrArg (V c main_v42 : S50000x1.Idx → EReal) (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 1 + 1 * 0 = 0; rw [e1]

theorem bias_apply (c : Dev nD) (t : Fin cfg1.N) (q : Fin 128) :
    (iblk1 V c 3 t : Vec Ideal S1x128 .f32) (ix2 (0 : Fin 1) q) = (V c main_v43 : S1x128.Idx → EReal) (ix2 (0 : Fin 1) q) := by
  obtain ⟨-, -, -, -, -, -, e0, e1, -⟩ := idx_facts t
  unfold iblk1
  rw [View.read_apply]
  show (V c main_v43 : S1x128.Idx → EReal) _ = _
  refine congrArg (V c main_v43 : S1x128.Idx → EReal) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

theorem out_emb (t : Fin cfg1.N) (p : Fin 2000) (q : Fin 128) :
    ((cfg1.win 4).blk t).view.emb (ix2 p q) = (ix2 (row t p) q : S50000x128.Idx) := by
  obtain ⟨-, -, -, -, -, -, -, -, e4, e5⟩ := idx_facts t
  funext a
  apply Fin.ext
  match a with
  | ⟨0, _⟩ => show win1_4.index t (0 : Fin 2) * 2000 + 1 * p.val = t.val * 2000 + p.val; rw [e4]; omega
  | ⟨1, _⟩ => show win1_4.index t (1 : Fin 2) * 128 + 1 * q.val = q.val; rw [e5]; omega

/-! ## The array the region leaves -/

/-- The combination of the whole arrays the region is entered with, in the host's operations. -/
abbrev combined (c : Dev nD) : S50000x128.Idx → EReal :=
  maximumf (F := Ideal) (s := S50000x128) (φ := .f32)
    (addf (addf (V c main_v41 : S50000x128.Idx → EReal)
        (mulf (broadcastInDim S50000x128 ![0, 1] bcastCol (V c main_v42 : S50000x1.Idx → EReal)) (V c main_v28 : S50000x128.Idx → EReal)))
      (broadcastInDim S50000x128 ![0, 1] bcastRow (V c main_v43 : S1x128.Idx → EReal)))
    (broadcastInDim S50000x128 ![] bcast_S_S50000x128 (constant (F := Ideal) S_ .f32 0x00000000#32))

/-- What point t writes back is block t of the combination. -/
theorem flushed_eq (c : Dev nD) (t : Fin cfg1.N) :
    (dat1 V c).flushed 4 t = ((cfg1.win 4).blk t).view.read (Elt Ideal) (combined V c) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  refine (body_apply (iblk1 V c 0 t) (iblk1 V c 2 t) (iblk1 V c 1 t) (iblk1 V c 3 t) p q).trans ?_
  rw [View.read_apply, out_emb t p q]
  refine Eq.trans ?_ (host_apply (V c main_v41) (V c main_v28) (V c main_v42) (V c main_v43) (row t p) q).symm
  rw [agg_apply V c t p q, feat_apply V c t p q, scale_apply V c t p, bias_apply V c t q]

/-- An index of the array is in point t's block iff each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v44).slice (win1_4.rect t)).set ↔ _
  rw [View.set_slice_whole, Rect.mem_set_unit]
  exact Iff.rfl

/-- Row r lies in block r / 2000: the 25 blocks cover the array. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, -, -, -, -, e4, e5⟩ := idx_facts t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; rw [e4, ht]; omega
  | ⟨1, _⟩ => show win1_4.index t (1 : Fin 2) * 128 ≤ (i 1).val ∧ (i 1).val < win1_4.index t (1 : Fin 2) * 128 + 128; rw [e5]; omega

/-- After the region its result array is the combination of the arrays it was entered with. -/
theorem final (c : Dev nD) : (dat1 V c).arrAt 4 cfg1.N = combined V c :=
  (dat1 V c).arrAt_eq_of_cover 4 (combined V c) (fun t _ => flushed_eq V c t) cover

/-- The combination only depends on the four arrays the region is entered with. -/
theorem combined_congr (c : Dev nD) {a h : S50000x128.Idx → EReal} {s : S50000x1.Idx → EReal} {b : S1x128.Idx → EReal}
    (ha : (V c main_v41 : S50000x128.Idx → EReal) = a) (hh : (V c main_v28 : S50000x128.Idx → EReal) = h)
    (hs : (V c main_v42 : S50000x1.Idx → EReal) = s) (hb : (V c main_v43 : S1x128.Idx → EReal) = b) :
    combined V c = maximumf (F := Ideal) (s := S50000x128) (φ := .f32)
      (addf (addf a (mulf (broadcastInDim S50000x128 ![0, 1] bcastCol s) h)) (broadcastInDim S50000x128 ![0, 1] bcastRow b))
      (broadcastInDim S50000x128 ![] bcast_S_S50000x128 (constant (F := Ideal) S_ .f32 0x00000000#32)) := by
  subst ha hh hs hb
  rfl

end Cert.KernelIdeal.Combine1

end
-- ==== Proof.Combine3.lean ====
/-
  The second layer's combination. The region tiles the 50000 rows into 25 blocks of 2000; at a block the body adds to
  the aggregated block the features' block scaled row by row by a column of self-loop weights, and adds the bias row to
  every row. Each entry (r, c) of the result depends on the entries (r, c) of the aggregate and of the features, on the
  column's entry in row r and on the bias' entry in column c only, so the array the region leaves is the same
  combination of the whole arrays the region was entered with.
-/
import proofs.«131186_j23072564314519_1_alg».proof.Proof.Gen.KernelIdeal.Frame
import proofs.«131186_j23072564314519_1_alg».proof.Proof.LibColumn
import Idealize.ShloMosaic.Lib.Pipeline.Value
import Idealize.ShloMosaic.Lib.ValueIdx
import Idealize.ShloMosaic.Lib.ValueLayout

noncomputable section

namespace Cert.KernelIdeal.Combine3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's value at an entry -/

/-- Entry (p, q) of what the body stores: the aggregate's entry plus the column's entry of row p times the features'
    entry, plus the bias' entry of column q. -/
theorem body_apply (a : Vec Ideal S2000x64 .f32) (s : Vec Ideal S2000x1 .f32) (h : Vec Ideal S2000x64 .f32) (b : Vec Ideal S1x64 .f32)
    (p : Fin 2000) (q : Fin 64) :
    k3_pay1 a s h b (ix2 p q)
      = (a (ix2 p q) + s (ix2 p (0 : Fin 1)) * h (ix2 p q)) + b (ix2 (0 : Fin 1) q) := by
  unfold k3_pay1
  simp only [shapeCast_self]
  show (a (ix2 p q) + broadcastTo S2000x64 s broadcasts_S2000x1_S2000x64 (ix2 p q) * h (ix2 p q))
      + broadcastTo S2000x64 b broadcasts_S1x64_S2000x64 (ix2 p q) = _
  rw [Cert.LibColumn.broadcastTo_a1_ab_apply, broadcastTo_1b_ab_apply]

/-! ## The host's broadcasts at an entry -/

theorem bcastCol : S50000x1.BroadcastsInDim S50000x64 (![0, 1] : Fin 2 → Fin S50000x64.rank) := by decide
theorem bcastRow : S1x64.BroadcastsInDim S50000x64 (![0, 1] : Fin 2 → Fin S50000x64.rank) := by decide

/-- A column [50000, 1] spread over the 64 entries of each row. -/
theorem col_apply (s : S50000x1.Idx → EReal) (r : Fin 50000) (q : Fin 64) :
    broadcastInDim S50000x64 ![0, 1] bcastCol s (ix2 r q) = s (ix2 r (0 : Fin 1)) :=
  broadcastInDim_apply _ bcastCol s (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

/-- A row [1, 64] repeated in each of the 50000 rows. -/
theorem row_apply (b : S1x64.Idx → EReal) (r : Fin 50000) (q : Fin 64) :
    broadcastInDim S50000x64 ![0, 1] bcastRow b (ix2 r q) = b (ix2 (0 : Fin 1) q) :=
  broadcastInDim_apply _ bcastRow b (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])

/-- Entry (r, q) of the host's form of the combination: the same expression of the four arrays' entries. -/
theorem host_apply (a h : S50000x64.Idx → EReal) (s : S50000x1.Idx → EReal) (b : S1x64.Idx → EReal) (r : Fin 50000) (q : Fin 64) :
    addf (F := Ideal) (s := S50000x64) (φ := .f32)
        (addf a (mulf (broadcastInDim S50000x64 ![0, 1] bcastCol s) h)) (broadcastInDim S50000x64 ![0, 1] bcastRow b) (ix2 r q)
      = (a (ix2 r q) + s (ix2 r (0 : Fin 1)) * h (ix2 r q)) + b (ix2 (0 : Fin 1) q) := by
  show (a (ix2 r q) + broadcastInDim S50000x64 ![0, 1] bcastCol s (ix2 r q) * h (ix2 r q))
      + broadcastInDim S50000x64 ![0, 1] bcastRow b (ix2 r q) = _
  rw [col_apply, row_apply]

/-! ## The blocks -/

theorem hz : (![0, 0] : Fin 2 → Nat) = fun _ => 0 := funext fun a => by fin_cases a <;> rfl

/-- The printed index maps over the 25 grid points: the aggregate's, the features', the column's and the result's
    windows sit at block row t, the bias' window stays at the origin. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of block t is row 2000 t + p of the array. -/
def row (t : Fin cfg3.N) (p : Fin 2000) : Fin 50000 :=
  ⟨t.val * 2000 + p.val, by have := t.isLt; have hN : cfg3.N = 25 := N_3; omega⟩

theorem agg_apply (c : Dev nD) (t : Fin cfg3.N) (p : Fin 2000) (q : Fin 64) :
    (iblk3 V c 0 t : Vec Ideal S2000x64 .f32) (ix2 p q) = (V c main_v58 : S50000x64.Idx → EReal) (ix2 (row t p) q) := by
  obtain ⟨e0, e1, -⟩ := idx_facts t
  unfold iblk3
  rw [View.read_apply]
  show (V c main_v58 : S50000x64.Idx → EReal) _ = _
  refine congrArg (V c main_v58 : S50000x64.Idx → EReal) (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 64 + 1 * q.val = q.val; rw [e1]; omega

theorem feat_apply (c : Dev nD) (t : Fin cfg3.N) (p : Fin 2000) (q : Fin 64) :
    (iblk3 V c 1 t : Vec Ideal S2000x64 .f32) (ix2 p q) = (V c main_v45 : S50000x64.Idx → EReal) (ix2 (row t p) q) := by
  obtain ⟨-, -, e0, e1, -⟩ := idx_facts t
  unfold iblk3
  rw [View.read_apply]
  show (V c main_v45 : S50000x64.Idx → EReal) _ = _
  refine congrArg (V c main_v45 : S50000x64.Idx → EReal) (funext fun a => Fin.ext ?_)
  match a with
  | ⟨0, _⟩ => show win3_1.index t (0 : Fin 2) * 2000 + 1 * p.val = t.val * 2000 + p.val; rw [e0]; omega
  | ⟨1, _⟩ => show win3_1.index t (1 : Fin 2) * 64 + 1 * q.val = q.val; rw [e1]; omega

theorem scale_apply (c : Dev nD) (t : Fin cfg3.N) (p : Fin 2000) :
    (iblk3 V c 2 t : Vec Ideal S2000x1 .f32) (ix2 p (0 : Fin 1)) = (V c main_v59 : S50000x1.Idx → EReal) (ix2 (row t p) (0 : Fin 1)) := by
  obtain ⟨-, -, -, -, e0, e1, -⟩ := idx_facts t
  unfold iblk3
  rw [View.read_apply]
  show (V c main_v59 : S50000x1.Idx → EReal) _ = _
  refine congrArg (V c main_v59 : S50000x1.Idx → EReal) (funext fun a => Fin.ext ?_)
  match a with
  | ⟨0, _⟩ => show win3_2.index t (0 : Fin 2) * 2000 + 1 * p.val = t.val * 2000 + p.val; rw [e0]; omega
  | ⟨1, _⟩ => show win3_2.index t (1 : Fin 2) * 1 + 1 * 0 = 0; rw [e1]

theorem bias_apply (c : Dev nD) (t : Fin cfg3.N) (q : Fin 64) :
    (iblk3 V c 3 t : Vec Ideal S1x64 .f32) (ix2 (0 : Fin 1) q) = (V c main_v60 : S1x64.Idx → EReal) (ix2 (0 : Fin 1) q) := by
  obtain ⟨-, -, -, -, -, -, e0, e1, -⟩ := idx_facts t
  unfold iblk3
  rw [View.read_apply]
  show (V c main_v60 : S1x64.Idx → EReal) _ = _
  refine congrArg (V c main_v60 : S1x64.Idx → EReal) (funext fun a => Fin.ext ?_)
  match a with
  | ⟨0, _⟩ => show win3_3.index t (0 : Fin 2) * 1 + 1 * 0 = 0; rw [e0]
  | ⟨1, _⟩ => show win3_3.index t (1 : Fin 2) * 64 + 1 * q.val = q.val; rw [e1]; omega

theorem out_emb (t : Fin cfg3.N) (p : Fin 2000) (q : Fin 64) :
    ((cfg3.win 4).blk t).view.emb (ix2 p q) = (ix2 (row t p) q : S50000x64.Idx) := by
  obtain ⟨-, -, -, -, -, -, -, -, e4, e5⟩ := idx_facts t
  funext a
  apply Fin.ext
  match a with
  | ⟨0, _⟩ => show win3_4.index t (0 : Fin 2) * 2000 + 1 * p.val = t.val * 2000 + p.val; rw [e4]; omega
  | ⟨1, _⟩ => show win3_4.index t (1 : Fin 2) * 64 + 1 * q.val = q.val; rw [e5]; omega

/-! ## The array the region leaves -/

/-- The combination of the whole arrays the region is entered with, in the host's operations. -/
abbrev combined (c : Dev nD) : S50000x64.Idx → EReal :=
  addf (F := Ideal) (s := S50000x64) (φ := .f32)
    (addf (V c main_v58 : S50000x64.Idx → EReal)
      (mulf (broadcastInDim S50000x64 ![0, 1] bcastCol (V c main_v59 : S50000x1.Idx → EReal)) (V c main_v45 : S50000x64.Idx → EReal)))
    (broadcastInDim S50000x64 ![0, 1] bcastRow (V c main_v60 : S1x64.Idx → EReal))

/-- What point t writes back is block t of the combination. -/
theorem flushed_eq (c : Dev nD) (t : Fin cfg3.N) :
    (dat3 V c).flushed 4 t = ((cfg3.win 4).blk t).view.read (Elt Ideal) (combined V c) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  funext j
  obtain ⟨p, q, rfl⟩ : ∃ (p : Fin 2000) (q : Fin 64), j = ix2 p q := ⟨j 0, j 1, eq_ix2 j⟩
  refine (body_apply (iblk3 V c 0 t) (iblk3 V c 2 t) (iblk3 V c 1 t) (iblk3 V c 3 t) p q).trans ?_
  rw [View.read_apply, out_emb t p q]
  refine Eq.trans ?_ (host_apply (V c main_v58) (V c main_v45) (V c main_v59) (V c main_v60) (row t p) q).symm
  rw [agg_apply V c t p q, feat_apply V c t p q, scale_apply V c t p, bias_apply V c t q]

/-- An index of the array is in point t's block iff each coordinate is in the block's range on its axis. -/
theorem mem_blk (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v61).slice (win3_4.rect t)).set ↔ _
  rw [View.set_slice_whole, Rect.mem_set_unit]
  exact Iff.rfl

/-- Row r lies in block r / 2000: the 25 blocks cover the array. -/
theorem cover (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 25 := N_3
  obtain ⟨t, ht⟩ : ∃ t : Fin cfg3.N, t.val = (i 0).val / 2000 := ⟨⟨(i 0).val / 2000, by omega⟩, rfl⟩
  obtain ⟨-, -, -, -, -, -, -, -, e4, e5⟩ := idx_facts t
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; rw [e4, ht]; omega
  | ⟨1, _⟩ => show win3_4.index t (1 : Fin 2) * 64 ≤ (i 1).val ∧ (i 1).val < win3_4.index t (1 : Fin 2) * 64 + 64; rw [e5]; omega

/-- After the region its result array is the combination of the arrays it was entered with. -/
theorem final (c : Dev nD) : (dat3 V c).arrAt 4 cfg3.N = combined V c :=
  (dat3 V c).arrAt_eq_of_cover 4 (combined V c) (fun t _ => flushed_eq V c t) cover

/-- The combination only depends on the four arrays the region is entered with. -/
theorem combined_congr (c : Dev nD) {a h : S50000x64.Idx → EReal} {s : S50000x1.Idx → EReal} {b : S1x64.Idx → EReal}
    (ha : (V c main_v58 : S50000x64.Idx → EReal) = a) (hh : (V c main_v45 : S50000x64.Idx → EReal) = h)
    (hs : (V c main_v59 : S50000x1.Idx → EReal) = s) (hb : (V c main_v60 : S1x64.Idx → EReal) = b) :
    combined V c = addf (F := Ideal) (s := S50000x64) (φ := .f32)
      (addf a (mulf (broadcastInDim S50000x64 ![0, 1] bcastCol s) h)) (broadcastInDim S50000x64 ![0, 1] bcastRow b) := by
  subst ha hh hs hb
  rfl

end Cert.KernelIdeal.Combine3

end
-- ==== Proof.Boundaries.lean ====
/-
  What the buffers hold at each boundary of the idealized kernel's program, for the buffers a later stage reads. The
  first stretch of host operations computes the graph side (sources, targets, edge weights, self-loop weights) from the
  edge array; no later stretch or region writes those buffers or an argument, so they hold the same values at every
  later boundary. The second and fourth stretches aggregate a region's result over the edges and re-lay the self-loop
  weights as a column and the bias as a row for the region that follows.
-/
import proofs.«131186_j23072564314519_1_alg».proof.Proof.Gen.KernelIdeal.Frame
import proofs.«131186_j23072564314519_1_alg».proof.Proof.Graph
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first stretch -/

/-- The first stretch leaves argument `main_arg0` as launched. -/
theorem W1_main_arg0 (c : Dev nD) : W1 m ρ c (Proc.devRef .tc main_arg0) = m ((c : Thread nD τ).loc main_arg0) := by
  show StableHlo.after hostOps0 (W0 m ρ c) (Proc.devRef .tc main_arg0) = _
  after_results_simp

/-- The first stretch leaves argument `main_arg2` as launched. -/
theorem W1_main_arg2 (c : Dev nD) : W1 m ρ c (Proc.devRef .tc main_arg2) = m ((c : Thread nD τ).loc main_arg2) := by
  show StableHlo.after hostOps0 (W0 m ρ c) (Proc.devRef .tc main_arg2) = _
  after_results_simp

/-- The first stretch leaves argument `main_arg3` as launched. -/
theorem W1_main_arg3 (c : Dev nD) : W1 m ρ c (Proc.devRef .tc main_arg3) = m ((c : Thread nD τ).loc main_arg3) := by
  show StableHlo.after hostOps0 (W0 m ρ c) (Proc.devRef .tc main_arg3) = _
  after_results_simp

/-- The first stretch leaves argument `main_arg4` as launched. -/
theorem W1_main_arg4 (c : Dev nD) : W1 m ρ c (Proc.devRef .tc main_arg4) = m ((c : Thread nD τ).loc main_arg4) := by
  show StableHlo.after hostOps0 (W0 m ρ c) (Proc.devRef .tc main_arg4) = _
  after_results_simp

/-- The first stretch leaves argument `main_arg5` as launched. -/
theorem W1_main_arg5 (c : Dev nD) : W1 m ρ c (Proc.devRef .tc main_arg5) = m ((c : Thread nD τ).loc main_arg5) := by
  show StableHlo.after hostOps0 (W0 m ρ c) (Proc.devRef .tc main_arg5) = _
  after_results_simp

/-- After the first stretch `main_v1` holds the edges' sources. -/
theorem W1_main_v1 (c : Dev nD) : W1 m ρ c (Proc.devRef .tc main_v1) = Cert.Graph.sources (m ((c : Thread nD τ).loc main_arg1)) := by
  show StableHlo.after hostOps0 (W0 m ρ c) (Proc.devRef .tc main_v1) = _
  after_results_simp
  rfl

/-- After the first stretch `main_v3` holds the edges' targets. -/
theorem W1_main_v3 (c : Dev nD) : W1 m ρ c (Proc.devRef .tc main_v3) = Cert.Graph.targets (m ((c : Thread nD τ).loc main_arg1)) := by
  show StableHlo.after hostOps0 (W0 m ρ c) (Proc.devRef .tc main_v3) = _
  after_results_simp
  rfl

/-- After the first stretch `main_v26` holds the edges' weights. -/
theorem W1_main_v26 (c : Dev nD) : W1 m ρ c (Proc.devRef .tc main_v26) = Cert.Graph.edgeWeight (m ((c : Thread nD τ).loc main_arg1)) := by
  show StableHlo.after hostOps0 (W0 m ρ c) (Proc.devRef .tc main_v26) = _
  after_results_simp
  rfl

/-- After the first stretch `main_v27` holds the self-loops' weights. -/
theorem W1_main_v27 (c : Dev nD) : W1 m ρ c (Proc.devRef .tc main_v27) = Cert.Graph.selfWeight (m ((c : Thread nD τ).loc main_arg1)) := by
  show StableHlo.after hostOps0 (W0 m ρ c) (Proc.devRef .tc main_v27) = _
  after_results_simp
  rfl

/-! ## After the first region: only its result array changes -/

theorem W2_main_v1 (c : Dev nD) : W2 m ρ c (Proc.devRef .tc main_v1) = Cert.Graph.sources (m ((c : Thread nD τ).loc main_arg1)) :=
  (W2_of_ne m ρ c main_v1 (by decide)).trans (W1_main_v1 m ρ c)
theorem W2_main_v3 (c : Dev nD) : W2 m ρ c (Proc.devRef .tc main_v3) = Cert.Graph.targets (m ((c : Thread nD τ).loc main_arg1)) :=
  (W2_of_ne m ρ c main_v3 (by decide)).trans (W1_main_v3 m ρ c)
theorem W2_main_v26 (c : Dev nD) : W2 m ρ c (Proc.devRef .tc main_v26) = Cert.Graph.edgeWeight (m ((c : Thread nD τ).loc main_arg1)) :=
  (W2_of_ne m ρ c main_v26 (by decide)).trans (W1_main_v26 m ρ c)
theorem W2_main_v27 (c : Dev nD) : W2 m ρ c (Proc.devRef .tc main_v27) = Cert.Graph.selfWeight (m ((c : Thread nD τ).loc main_arg1)) :=
  (W2_of_ne m ρ c main_v27 (by decide)).trans (W1_main_v27 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg5 (c : Dev nD) : W2 m ρ c (Proc.devRef .tc main_arg5) = m ((c : Thread nD τ).loc main_arg5) :=
  (W2_of_ne m ρ c main_arg5 (by decide)).trans (W1_main_arg5 m ρ c)

/-! ## After the second stretch -/

theorem W3_main_v1 (c : Dev nD) : W3 m ρ c (Proc.devRef .tc main_v1) = Cert.Graph.sources (m ((c : Thread nD τ).loc main_arg1)) := by
  show StableHlo.after hostOps1 (W2 m ρ c) (Proc.devRef .tc main_v1) = _
  after_results_simp
  exact W2_main_v1 m ρ c
theorem W3_main_v3 (c : Dev nD) : W3 m ρ c (Proc.devRef .tc main_v3) = Cert.Graph.targets (m ((c : Thread nD τ).loc main_arg1)) := by
  show StableHlo.after hostOps1 (W2 m ρ c) (Proc.devRef .tc main_v3) = _
  after_results_simp
  exact W2_main_v3 m ρ c
theorem W3_main_v26 (c : Dev nD) : W3 m ρ c (Proc.devRef .tc main_v26) = Cert.Graph.edgeWeight (m ((c : Thread nD τ).loc main_arg1)) := by
  show StableHlo.after hostOps1 (W2 m ρ c) (Proc.devRef .tc main_v26) = _
  after_results_simp
  exact W2_main_v26 m ρ c
theorem W3_main_v27 (c : Dev nD) : W3 m ρ c (Proc.devRef .tc main_v27) = Cert.Graph.selfWeight (m ((c : Thread nD τ).loc main_arg1)) := by
  show StableHlo.after hostOps1 (W2 m ρ c) (Proc.devRef .tc main_v27) = _
  after_results_simp
  exact W2_main_v27 m ρ c
theorem W3_main_arg4 (c : Dev nD) : W3 m ρ c (Proc.devRef .tc main_arg4) = m ((c : Thread nD τ).loc main_arg4) := by
  show StableHlo.after hostOps1 (W2 m ρ c) (Proc.devRef .tc main_arg4) = _
  after_results_simp
  exact W2_main_arg4 m ρ c
theorem W3_main_arg5 (c : Dev nD) : W3 m ρ c (Proc.devRef .tc main_arg5) = m ((c : Thread nD τ).loc main_arg5) := by
  show StableHlo.after hostOps1 (W2 m ρ c) (Proc.devRef .tc main_arg5) = _
  after_results_simp
  exact W2_main_arg5 m ρ c

/-- The second stretch leaves the first region's result where it was. -/
theorem W3_main_v28 (c : Dev nD) : W3 m ρ c (Proc.devRef .tc main_v28) = W2 m ρ c (Proc.devRef .tc main_v28) := by
  show StableHlo.after hostOps1 (W2 m ρ c) (Proc.devRef .tc main_v28) = _
  after_results_simp

/-- The second stretch aggregates the first region's result over the edges. -/
theorem W3_main_v41 (c : Dev nD) : W3 m ρ c (Proc.devRef .tc main_v41)
    = Cert.Graph.aggregate128 (W2 m ρ c (Proc.devRef .tc main_v28)) (m ((c : Thread nD τ).loc main_arg1)) := by
  show StableHlo.after hostOps1 (W2 m ρ c) (Proc.devRef .tc main_v41) = _
  after_results_simp
  rw [W2_main_v1 m ρ c, W2_main_v3 m ρ c, W2_main_v26 m ρ c]
  rfl

/-- The second stretch re-lays the self-loop weights as a column. -/
theorem W3_main_v42 (c : Dev nD) : W3 m ρ c (Proc.devRef .tc main_v42)
    = shapeCast S50000x1 (Cert.Graph.selfWeight (m ((c : Thread nD τ).loc main_arg1))) shapeCasts_S50000_S50000x1 := by
  show StableHlo.after hostOps1 (W2 m ρ c) (Proc.devRef .tc main_v42) = _
  after_results_simp
  rw [W2_main_v27 m ρ c]
  rfl

/-- The second stretch re-lays the first bias as a row. -/
theorem W3_main_v43 (c : Dev nD) : W3 m ρ c (Proc.devRef .tc main_v43)
    = shapeCast S1x128 (m ((c : Thread nD τ).loc main_arg3)) shapeCasts_S128_S1x128 := by
  show StableHlo.after hostOps1 (W2 m ρ c) (Proc.devRef .tc main_v43) = _
  after_results_simp
  rw [W2_main_arg3 m ρ c]
  rfl

/-! ## After the second and third regions: only their result arrays change -/

theorem W4_main_v1 (c : Dev nD) : W4 m ρ c (Proc.devRef .tc main_v1) = Cert.Graph.sources (m ((c : Thread nD τ).loc main_arg1)) :=
  (W4_of_ne m ρ c main_v1 (by decide)).trans (W3_main_v1 m ρ c)
theorem W4_main_v3 (c : Dev nD) : W4 m ρ c (Proc.devRef .tc main_v3) = Cert.Graph.targets (m ((c : Thread nD τ).loc main_arg1)) :=
  (W4_of_ne m ρ c main_v3 (by decide)).trans (W3_main_v3 m ρ c)
theorem W4_main_v26 (c : Dev nD) : W4 m ρ c (Proc.devRef .tc main_v26) = Cert.Graph.edgeWeight (m ((c : Thread nD τ).loc main_arg1)) :=
  (W4_of_ne m ρ c main_v26 (by decide)).trans (W3_main_v26 m ρ c)
theorem W4_main_v27 (c : Dev nD) : W4 m ρ c (Proc.devRef .tc main_v27) = Cert.Graph.selfWeight (m ((c : Thread nD τ).loc main_arg1)) :=
  (W4_of_ne m ρ c main_v27 (by decide)).trans (W3_main_v27 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_v1 (c : Dev nD) : W5 m ρ c (Proc.devRef .tc main_v1) = Cert.Graph.sources (m ((c : Thread nD τ).loc main_arg1)) :=
  (W5_of_ne m ρ c main_v1 (by decide)).trans (W4_main_v1 m ρ c)
theorem W5_main_v3 (c : Dev nD) : W5 m ρ c (Proc.devRef .tc main_v3) = Cert.Graph.targets (m ((c : Thread nD τ).loc main_arg1)) :=
  (W5_of_ne m ρ c main_v3 (by decide)).trans (W4_main_v3 m ρ c)
theorem W5_main_v26 (c : Dev nD) : W5 m ρ c (Proc.devRef .tc main_v26) = Cert.Graph.edgeWeight (m ((c : Thread nD τ).loc main_arg1)) :=
  (W5_of_ne m ρ c main_v26 (by decide)).trans (W4_main_v26 m ρ c)
theorem W5_main_v27 (c : Dev nD) : W5 m ρ c (Proc.devRef .tc main_v27) = Cert.Graph.selfWeight (m ((c : Thread nD τ).loc main_arg1)) :=
  (W5_of_ne m ρ c main_v27 (by decide)).trans (W4_main_v27 m ρ c)
theorem W5_main_arg5 (c : Dev nD) : W5 m ρ c (Proc.devRef .tc main_arg5) = m ((c : Thread nD τ).loc main_arg5) :=
  (W5_of_ne m ρ c main_arg5 (by decide)).trans (W4_main_arg5 m ρ c)

/-! ## After the fourth stretch -/

/-- The fourth stretch leaves the third region's result where it was. -/
theorem W6_main_v45 (c : Dev nD) : W6 m ρ c (Proc.devRef .tc main_v45) = W5 m ρ c (Proc.devRef .tc main_v45) := by
  show StableHlo.after hostOps3 (W5 m ρ c) (Proc.devRef .tc main_v45) = _
  after_results_simp

/-- The fourth stretch aggregates the third region's result over the edges. -/
theorem W6_main_v58 (c : Dev nD) : W6 m ρ c (Proc.devRef .tc main_v58)
    = Cert.Graph.aggregate64 (W5 m ρ c (Proc.devRef .tc main_v45)) (m ((c : Thread nD τ).loc main_arg1)) := by
  show StableHlo.after hostOps3 (W5 m ρ c) (Proc.devRef .tc main_v58) = _
  after_results_simp
  rw [W5_main_v1 m ρ c, W5_main_v3 m ρ c, W5_main_v26 m ρ c]
  rfl

/-- The fourth stretch re-lays the self-loop weights as a column. -/
theorem W6_main_v59 (c : Dev nD) : W6 m ρ c (Proc.devRef .tc main_v59)
    = shapeCast S50000x1 (Cert.Graph.selfWeight (m ((c : Thread nD τ).loc main_arg1))) shapeCasts_S50000_S50000x1 := by
  show StableHlo.after hostOps3 (W5 m ρ c) (Proc.devRef .tc main_v59) = _
  after_results_simp
  rw [W5_main_v27 m ρ c]
  rfl

/-- The fourth stretch re-lays the second bias as a row. -/
theorem W6_main_v60 (c : Dev nD) : W6 m ρ c (Proc.devRef .tc main_v60)
    = shapeCast S1x64 (m ((c : Thread nD τ).loc main_arg5)) shapeCasts_S64_S1x64 := by
  show StableHlo.after hostOps3 (W5 m ρ c) (Proc.devRef .tc main_v60) = _
  after_results_simp
  rw [W5_main_arg5 m ρ c]
  rfl

end Cert.KernelIdeal.Boundaries

end
-- ==== Proof.Relayout.lean ====
/-
  The two programs carry a per-node weight to a [50000, 1] column, and a bias to a one-row matrix, by different
  operations — a reshape in one, a broadcast along a new unit axis in the other. The two give the same array: entry
  (r, 0) of the column is the weight of node r, entry (0, c) of the row is the bias of column c.
-/
import proofs.«131186_j23072564314519_1_alg».proof.Proof.Network
import proofs.«131186_j23072564314519_1_alg».proof.Proof.LibColumn
import Idealize.ShloMosaic.Lib.Pipeline.Value
import Idealize.ShloMosaic.Lib.ValueIdx
import Idealize.ShloMosaic.Lib.ValueLayout

noncomputable section

namespace Cert.Relayout

open Cert.KernelIdeal Cert.KernelIdeal.Gen Idealize.ShloMosaic Idealize.ShloMosaic.ValueIdx

variable {α : Type}

/-- A per-node array reshaped to a column is the same array broadcast along a trailing unit axis. -/
theorem column_cast (v : S50000.Idx → α) (h : S50000.ShapeCasts S50000x1) :
    shapeCast S50000x1 v h = broadcastInDim S50000x1 ![0] Cert.Network.nodes_column v := by
  funext i
  obtain ⟨r, u, rfl⟩ : ∃ (r : Fin 50000) (u : Fin 1), i = ix2 r u := ⟨i 0, i 1, eq_ix2 i⟩
  rw [Cert.LibColumn.shapeCast_a_a1_apply]
  exact (broadcastInDim_apply _ Cert.Network.nodes_column v (ix2 r u) (ix1 r) (fun a => match a with
    | ⟨0, _⟩ => by show r.val = if (50000 : Nat) = 1 then 0 else r.val; rw [if_neg (by decide)])).symm

/-- A 128-entry bias reshaped to a one-row matrix is the same bias broadcast along a leading unit axis. -/
theorem row_cast128 (b : S128.Idx → α) (h : S128.ShapeCasts S1x128) :
    shapeCast S1x128 b h = broadcastInDim S1x128 ![1] Cert.Network.bias_row128 b := by
  funext i
  obtain ⟨u, q, rfl⟩ : ∃ (u : Fin 1) (q : Fin 128), i = ix2 u q := ⟨i 0, i 1, eq_ix2 i⟩
  rw [shapeCast_a_1a_apply]
  exact (broadcastInDim_apply _ Cert.Network.bias_row128 b (ix2 u q) (ix1 q) (fun a => match a with
    | ⟨0, _⟩ => by show q.val = if (128 : Nat) = 1 then 0 else q.val; rw [if_neg (by decide)])).symm

/-- A 64-entry bias reshaped to a one-row matrix is the same bias broadcast along a leading unit axis. -/
theorem row_cast64 (b : S64.Idx → α) (h : S64.ShapeCasts S1x64) :
    shapeCast S1x64 b h = broadcastInDim S1x64 ![1] Cert.Network.bias_row64 b := by
  funext i
  obtain ⟨u, q, rfl⟩ : ∃ (u : Fin 1) (q : Fin 64), i = ix2 u q := ⟨i 0, i 1, eq_ix2 i⟩
  rw [shapeCast_a_1a_apply]
  exact (broadcastInDim_apply _ Cert.Network.bias_row64 b (ix2 u q) (ix1 q) (fun a => match a with
    | ⟨0, _⟩ => by show q.val = if (64 : Nat) = 1 then 0 else q.val; rw [if_neg (by decide)])).symm

end Cert.Relayout

end
-- ==== Proof.KernelValue.lean ====
/-
  The idealized kernel's result array is the network function of its arguments. Reading the program's boundaries in
  order: the first region leaves the first layer's dense product; the second stretch aggregates it over the edges and
  the second region combines the pieces and clamps, leaving the hidden features; the third region leaves the second
  layer's dense product of the hidden features; the fourth stretch aggregates that and the last region combines the
  pieces into the result. The graph side is computed once, by the first stretch, and read unchanged by both layers.
-/
import proofs.«131186_j23072564314519_1_alg».proof.Proof.Dense1
import proofs.«131186_j23072564314519_1_alg».proof.Proof.Dense2
import proofs.«131186_j23072564314519_1_alg».proof.Proof.Combine1
import proofs.«131186_j23072564314519_1_alg».proof.Proof.Combine3
import proofs.«131186_j23072564314519_1_alg».proof.Proof.Boundaries
import proofs.«131186_j23072564314519_1_alg».proof.Proof.Relayout

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After the first region its result array is the first layer's dense product of the features and the first weights. -/
theorem dense1 (c : Dev nD) :
    W2 m ρ c (Proc.devRef .tc main_v28) = Cert.Network.dense128 (m ((c : Thread nD τ).loc main_arg0)) (m ((c : Thread nD τ).loc main_arg2)) :=
  ((W2_arr m ρ c 2).trans (Cert.KernelIdeal.Dense1.final (V1 m ρ) c)).trans
    (congrArg₂ (fun x w => Cert.Network.dense128 x w) (Cert.KernelIdeal.Boundaries.W1_main_arg0 m ρ c) (Cert.KernelIdeal.Boundaries.W1_main_arg2 m ρ c))

/-- After the second region its result array holds the hidden features. -/
theorem hidden (c : Dev nD) :
    W4 m ρ c (Proc.devRef .tc main_v44) = Cert.Network.hidden (m ((c : Thread nD τ).loc main_arg0)) (m ((c : Thread nD τ).loc main_arg1)) (m ((c : Thread nD τ).loc main_arg2)) (m ((c : Thread nD τ).loc main_arg3)) := by
  refine ((W4_arr m ρ c 4).trans (Cert.KernelIdeal.Combine1.final (V3 m ρ) c)).trans
    ((Cert.KernelIdeal.Combine1.combined_congr (V3 m ρ) c
      ((Cert.KernelIdeal.Boundaries.W3_main_v41 m ρ c).trans (congrArg (fun H => Cert.Graph.aggregate128 H (m ((c : Thread nD τ).loc main_arg1))) (dense1 m ρ c)))
      ((Cert.KernelIdeal.Boundaries.W3_main_v28 m ρ c).trans (dense1 m ρ c))
      (Cert.KernelIdeal.Boundaries.W3_main_v42 m ρ c)
      (Cert.KernelIdeal.Boundaries.W3_main_v43 m ρ c)).trans ?_)
  rw [Cert.Relayout.column_cast, Cert.Relayout.row_cast128]
  rfl

/-- After the third region its result array is the second layer's dense product of the hidden features and the second weights. -/
theorem dense2 (c : Dev nD) :
    W5 m ρ c (Proc.devRef .tc main_v45) = Cert.Network.dense64 (Cert.Network.hidden (m ((c : Thread nD τ).loc main_arg0)) (m ((c : Thread nD τ).loc main_arg1)) (m ((c : Thread nD τ).loc main_arg2)) (m ((c : Thread nD τ).loc main_arg3))) (m ((c : Thread nD τ).loc main_arg4)) :=
  ((W5_arr m ρ c 2).trans (Cert.KernelIdeal.Dense2.final (V4 m ρ) c)).trans
    (congrArg₂ (fun y w => Cert.Network.dense64 y w) (hidden m ρ c) (Cert.KernelIdeal.Boundaries.W4_main_arg4 m ρ c))

/-- After the last region the result array is the network's output of the six arguments. -/
theorem output (c : Dev nD) :
    W7 m ρ c (Proc.devRef .tc main_v61) = Cert.Network.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W7_arr m ρ c 4).trans (Cert.KernelIdeal.Combine3.final (V6 m ρ) c)).trans
    ((Cert.KernelIdeal.Combine3.combined_congr (V6 m ρ) c
      ((Cert.KernelIdeal.Boundaries.W6_main_v58 m ρ c).trans (congrArg (fun H => Cert.Graph.aggregate64 H (m ((c : Thread nD τ).loc main_arg1))) (dense2 m ρ c)))
      ((Cert.KernelIdeal.Boundaries.W6_main_v45 m ρ c).trans (dense2 m ρ c))
      (Cert.KernelIdeal.Boundaries.W6_main_v59 m ρ c)
      (Cert.KernelIdeal.Boundaries.W6_main_v60 m ρ c)).trans ?_)
  rw [Cert.Relayout.column_cast, Cert.Relayout.row_cast64]
  rfl

end Cert.KernelIdeal.Result

end
-- ==== Proof.RefValue.lean ====
/-
  The reference program's result is the network function of its arguments: its host operations, composed in program
  order, are the network's definition spelt out (the second layer recomputes the graph side from the same edge array,
  which gives the same terms).
-/
import proofs.«131186_j23072564314519_1_alg».proof.Proof.Network
import proofs.«131186_j23072564314519_1_alg».proof.Proof.Gen.ReferenceIdeal.Run

noncomputable section

namespace Cert.ReferenceIdeal.RefValue

open Idealize.ShloMosaic Idealize.ShloMosaic.TcCoe Idealize.SL.Sem

set_option maxRecDepth 16384 in
/-- The reference's composed result term is the network's output of the six arguments. -/
theorem result_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v94 (F := Ideal) m c
      = Cert.Network.output (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  unfold Cert.ReferenceIdeal.Value.res_main_v94
  rfl

end Cert.ReferenceIdeal.RefValue

end
-- ==== Proof.lean ====
/-
  A two-layer graph convolution: the tiled kernel against the host reference, over the extended reals.

  Each layer multiplies the node features by a weight matrix, sends every edge's source row, scaled by the edge's
  symmetric normalisation d(src)^(-1/2) · d(dst)^(-1/2), into its target's row, adds each node's own row scaled by
  d(node)^(-1), and adds a bias; the first layer is clamped below at zero. The reference does all of it with host
  operations. The kernel does the two matrix products and the two combinations (aggregate + self-loop term + bias, and the
  clamp) in four tiled regions of 25 blocks of 2000 rows, and leaves the degree computation, the gathers and the
  scatter-adds to the same host operations as the reference.

  Over the extended reals a block product into a zero accumulator is, entry by entry, the sum over the contraction index
  of the products — the same sum the host's matrix product is, whatever the tiling and the operands' storage format — and
  each combination is entry-wise, so each region leaves the host's operation applied to the whole arrays it was entered
  with. The host operations between the regions are the reference's own, applied to equal operands. Hence both programs
  compute one function of the six arguments (`Cert.Network.output`), by commutation with tiling alone: no law that
  would need finite values is used, and the precondition is never opened. The ideal pass rewrote nothing, so the kernel's
  idealization is its own text.
-/
import proofs.«131186_j23072564314519_1_alg».proof.Defs
import proofs.«131186_j23072564314519_1_alg».proof.Proof.Gen.Kernel
import proofs.«131186_j23072564314519_1_alg».proof.Proof.Gen.Kernel.Frame
import proofs.«131186_j23072564314519_1_alg».proof.Proof.Gen.KernelIdeal
import proofs.«131186_j23072564314519_1_alg».proof.Proof.Gen.KernelIdeal.Frame
import proofs.«131186_j23072564314519_1_alg».proof.Proof.Gen.ReferenceIdeal
import proofs.«131186_j23072564314519_1_alg».proof.Proof.Gen.ReferenceIdeal.Run
import proofs.«131186_j23072564314519_1_alg».proof.Proof.Gen.Pre_finite_inputs
import proofs.«131186_j23072564314519_1_alg».proof.Proof.KernelRun
import proofs.«131186_j23072564314519_1_alg».proof.Proof.KernelValue
import proofs.«131186_j23072564314519_1_alg».proof.Proof.RefValue

noncomputable section

namespace Cert.Proof

open Idealize.ShloMosaic Idealize.ShloMosaic.TcCoe Idealize.SL.Sem

/-- The kernel as printed runs to the end without a fault and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, both idealized programs end with the network's output of the arguments
    in their result arrays. -/
theorem algebraic : Cert.algebraic_KernelIdeal_ReferenceIdeal := by
  intro m ρ m' ρ' _ hagree
  refine ⟨fun c => Cert.Network.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.output m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
